-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel

variable [Facts]

def fn {F : FTy → Type} [FloatOps F] (main_arg0 : FVec F S256x4096 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  main_v3
-- ==== Kernel.lean ====
abbrev S256x4096 : Shape := ⟨2, ![256, 4096]⟩
abbrev S256x64x4096 : Shape := ⟨3, ![256, 64, 4096]⟩
abbrev S256x256 : Shape := ⟨2, ![256, 256]⟩
abbrev S256x64x256 : Shape := ⟨3, ![256, 64, 256]⟩
abbrev S256x1x256 : Shape := ⟨3, ![256, 1, 256]⟩

abbrev nBuf : Space → Nat
  | .hbm => 2
  | .vmem => 4
  | .smem => 0
  | _ => 0

abbrev bufTy : (tb : Table) → Fin (tcTables nBuf tb) → BufTy
  | .hbm, ⟨0, _⟩ => ⟨S256x4096, .f32⟩
  | .hbm, ⟨1, _⟩ => ⟨S256x64x4096, .f32⟩
  | .local _ .vmem, ⟨0, _⟩ => ⟨S256x256, .f32⟩
  | .local _ .vmem, ⟨1, _⟩ => ⟨S256x256, .f32⟩
  | .local _ .vmem, ⟨2, _⟩ => ⟨S256x64x256, .f32⟩
  | .local _ .vmem, ⟨3, _⟩ => ⟨S256x64x256, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x256_S256x256_0_0 : ∀ a, (![0, 0] : Fin 2 → Nat) a + S256x256.size a ≤ S256x256.size a
  h_S256x256 : 0 < S256x256.numel
  iota_S256x64x256_d1_w32 : S256x64x256.Iotas .tc 32 [1]
  shapeCasts_S256x256_S256x1x256 : S256x256.ShapeCasts S256x1x256
  broadcasts_S256x1x256_S256x64x256 : S256x1x256.Broadcasts S256x64x256
  natLt_1_32 : 1 < 32
  inb_S256x64x256_S256x64x256_0_0_0 : ∀ a, (![0, 0, 0] : Fin 3 → Nat) a + S256x64x256.size a ≤ S256x64x256.size a
  h_S256x64x256 : 0 < S256x64x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S256x4096.size a
  hwx0_0 : ∀ i : grid0.Coords, EltTy.bits .f32 = 32 ∨ (Rect.block (s := S256x4096) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64x256.size a ≤ S256x64x4096.size a
  hwx0_1 : ∀ i : grid0.Coords, EltTy.bits .f32 = 32 ∨ (Rect.block (s := S256x64x4096) S256x64x256.size (cc0_transform_1 i) (hinb0_1 i)).WholeWords (EltTy.packing .f32)

variable [Facts₀]

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x64x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x4096 : Shape := ⟨2, ![256, 4096]⟩
abbrev S_ : Shape := ⟨0, ![]⟩
abbrev S256x4096x1 : Shape := ⟨3, ![256, 4096, 1]⟩
abbrev S1x1x64 : Shape := ⟨3, ![1, 1, 64]⟩
abbrev S256x4096x64 : Shape := ⟨3, ![256, 4096, 64]⟩
abbrev S256x64x4096 : Shape := ⟨3, ![256, 64, 4096]⟩

abbrev nBuf : Space → Nat
  | .hbm => 33
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S256x4096, .f32⟩
  | .hbm, ⟨2, _⟩ => ⟨S256x4096, .f32⟩
  | .hbm, ⟨3, _⟩ => ⟨S_, .f32⟩
  | .hbm, ⟨4, _⟩ => ⟨S256x4096, .f32⟩
  | .hbm, ⟨5, _⟩ => ⟨S256x4096, .f32⟩
  | .hbm, ⟨6, _⟩ => ⟨S_, .f32⟩
  | .hbm, ⟨7, _⟩ => ⟨S256x4096, .f32⟩
  | .hbm, ⟨8, _⟩ => ⟨S256x4096, .f32⟩
  | .hbm, ⟨9, _⟩ => ⟨S_, .f32⟩
  | .hbm, ⟨10, _⟩ => ⟨S256x4096, .f32⟩
  | .hbm, ⟨11, _⟩ => ⟨S256x4096, .f32⟩
  | .hbm, ⟨12, _⟩ => ⟨S256x4096, .f32⟩
  | .hbm, ⟨13, _⟩ => ⟨S_, .f32⟩
  | .hbm, ⟨14, _⟩ => ⟨S256x4096, .f32⟩
  | .hbm, ⟨15, _⟩ => ⟨S256x4096, .f32⟩
  | .hbm, ⟨16, _⟩ => ⟨S_, .f32⟩
  | .hbm, ⟨17, _⟩ => ⟨S_, .i32⟩
  | .hbm, ⟨18, _⟩ => ⟨S_, .f32⟩
  | .hbm, ⟨19, _⟩ => ⟨S256x4096, .f32⟩
  | .hbm, ⟨20, _⟩ => ⟨S256x4096, .f32⟩
  | .hbm, ⟨21, _⟩ => ⟨S_, .f32⟩
  | .hbm, ⟨22, _⟩ => ⟨S256x4096, .f32⟩
  | .hbm, ⟨23, _⟩ => ⟨S256x4096, .f32⟩
  | .hbm, ⟨24, _⟩ => ⟨S256x4096, .f32⟩
  | .hbm, ⟨25, _⟩ => ⟨S256x4096, .i32⟩
  | .hbm, ⟨26, _⟩ => ⟨S256x4096x1, .i32⟩
  | .hbm, ⟨27, _⟩ => ⟨S1x1x64, .i32⟩
  | .hbm, ⟨28, _⟩ => ⟨S256x4096x64, .i32⟩
  | .hbm, ⟨29, _⟩ => ⟨S256x4096x64, .i32⟩
  | .hbm, ⟨30, _⟩ => ⟨S256x4096x64, .i1⟩
  | .hbm, ⟨31, _⟩ => ⟨S256x4096x64, .f32⟩
  | .hbm, ⟨32, _⟩ => ⟨S256x64x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v14 : Ref sig .tc := ⟨.hbm, 31, rfl⟩
abbrev main_v15 : Ref sig .tc := ⟨.hbm, 32, rfl⟩

abbrev nD : Nat := 1
abbrev τ : Topo := Topo.v7x

variable {F : FTy → Type} [FloatOps F]

class Facts₀ : Prop where
  bcast_S_S256x4096 : S_.BroadcastsInDim S256x4096 (![] : Fin 0 → Fin S256x4096.rank)
  bcast_S256x4096_S256x4096x1_0_1 : S256x4096.BroadcastsInDim S256x4096x1 (![0, 1] : Fin 2 → Fin S256x4096x1.rank)
  bcast_S256x4096x1_S256x4096x64_0_1_2 : S256x4096x1.BroadcastsInDim S256x4096x64 (![0, 1, 2] : Fin 3 → Fin S256x4096x64.rank)
  bcast_S1x1x64_S256x4096x64_0_1_2 : S1x1x64.BroadcastsInDim S256x4096x64 (![0, 1, 2] : Fin 3 → Fin S256x4096x64.rank)
  transposes_S256x4096x64_S256x64x4096_0_2_1 : S256x4096x64.Transposes [0, 2, 1] S256x64x4096

variable [Facts₀]

class Facts : Prop extends Facts₀ where

variable [Facts]
-- ==== Proof.SpikeCode.lean ====
/-
  The latency spike code, as mathematics on the extended reals.

  An input `x` is squashed by the logistic function `σ(x) = 1 / (1 + e^(-x))`, and turned into a latency
      ℓ(x) = min 63 (max 0 (−10 · log (σ(x) + ε))),        ε the float nearest 1e-7,
  so that a larger input fires earlier. Its TIME BIN is the integer part `⌊ℓ(x)⌋`, as a 32-bit word. The spike
  train over 64 time steps is the indicator of that bin:
      train x [b, t, n] = 1 if bin (x [b, n]) = t, and 0 otherwise.
  The indicator is the one-bit word of the comparison read as a number.

  Two spellings of one element are joined to this definition here. The first computes `σ` as one operation, takes
  63 as a float constant, and widens the comparison's bit to 32 bits before reading it as a signed number. The
  second spells `σ(x)` out as the quotient `1 / (1 + e^(-x))`, takes 63 as the integer 63 read as a number, and
  reads the comparison's bit as an unsigned number. On the extended reals these agree: the logistic function IS
  that quotient, the float constant `63.0` denotes the real 63, and a one-bit word is 0 or 1 whichever way it is read.
-/
import Idealize.ShloMosaic.PureOps.Ideal
import Idealize.ShloMosaic.PureOps.Ideal.Laws
import Idealize.ShloMosaic.Lib.ValueIdx

noncomputable section

namespace Cert.SpikeCode

open Idealize.ShloMosaic Idealize.ShloMosaic.ValueIdx

/-- The input array's shape: 256 rows of 4096 features. -/
abbrev SIn : Shape := ⟨2, ![256, 4096]⟩
/-- The spike train's shape: 256 rows, 64 time steps, 4096 features. -/
abbrev SOut : Shape := ⟨3, ![256, 64, 4096]⟩

/-- The latency of an input: `min 63 (max 0 (−10 · log (σ(x) + ε)))`, the constants as the floats the programs spell. -/
def latency (x : EReal) : EReal :=
  min (Ideal.ofBits .f32 0x427C0000#32)
    (max (Ideal.ofBits .f32 0x00000000#32)
      (Ideal.ofBits .f32 0xC1200000#32 * Ideal.log (Ideal.logistic x + Ideal.ofBits .f32 0x33D6BF95#32)))

/-- The time bin of an input: the integer part of its latency, as a 32-bit word. -/
def bin (x : EReal) : BitVec 32 := Ideal.fptosi 32 (Ideal.liftRound Int.floor (latency x))

/-- The spike indicator: the bit "the bin is time step `t`", read as a number (0 or 1). -/
def spike (b : BitVec 32) (t : Nat) : EReal :=
  ((((IntOp.cmpi .eq b (BitVec.ofNat 32 t)).setWidth 32).toInt : ℝ) : EReal)

/-- The input index `[b, n]` that the train's index `[b, t, n]` depends on. -/
abbrev rowFeature (i : SOut.Idx) : SIn.Idx := ix2 (n0 := 256) (n1 := 4096) (i 0) (i 2)

/-- The spike train of an input array: at row `b`, time step `t`, feature `n` the indicator that the bin of
    `x [b, n]` is `t`. -/
def train (x : SIn.Idx → EReal) : SOut.Idx → EReal :=
  fun i => spike (bin (x (rowFeature i))) (i 1).val

/-! ## The constants -/

/-- The float `1.0` denotes the real 1. -/
theorem one_f32 : Ideal.ofBits .f32 0x3F800000#32 = 1 := by
  simp [Ideal.ofBits, Ideal.ieee, -EReal.coe_mul]; norm_num

/-- The float `63.0` denotes the real 63, which is also the integer 63 read as a number. -/
theorem sixtythree_f32 : Ideal.ofBits .f32 0x427C0000#32 = (((63#32 : BitVec 32).toInt : ℝ) : EReal) := by
  have h : ((63#32 : BitVec 32).toInt : ℝ) = 63 := by
    have : (63#32 : BitVec 32).toInt = 63 := by decide
    rw [this]; norm_num
  rw [h]
  simp [Ideal.ofBits, Ideal.ieee, -EReal.coe_mul]; norm_num

/-- The logistic function is the quotient `1 / (1 + e^(-x))`, the two ones spelt as floats. -/
theorem logistic_quotient (x : EReal) :
    Ideal.div (Ideal.ofBits .f32 0x3F800000#32) (Ideal.ofBits .f32 0x3F800000#32 + Ideal.exp (-x)) = Ideal.logistic x := by
  rw [one_f32]; rfl

/-- A one-bit word widened to 32 bits and read signed is the bit read unsigned: both are 0 or 1. -/
theorem bit_signed_eq_unsigned (b : BitVec 1) : ((b.setWidth 32).toInt : ℝ) = (b.toNat : ℝ) := by
  rcases BitVec.eq_zero_or_eq_one b with h | h <;> subst h <;> simp

/-! ## One element, in the two spellings -/

/-- The first spelling: `σ` one operation, `63.0` a float constant, the comparison's bit widened and read signed. -/
theorem elt_of_logistic (x : EReal) (t : Nat) :
    FloatOps.sitofp (F := Ideal) .f32
      ((IntOp.cmpi .eq
        (FloatOps.fptosi (F := Ideal) (φ := .f32) 32
          (FloatOps.floor (F := Ideal) (φ := .f32)
            (FloatOps.minimumf (F := Ideal) (φ := .f32) (FloatOps.ofBits (F := Ideal) .f32 0x427C0000#32)
              (FloatOps.maximumf (F := Ideal) (φ := .f32) (FloatOps.ofBits (F := Ideal) .f32 0x00000000#32)
                (FloatOps.mulf (F := Ideal) (φ := .f32) (FloatOps.ofBits (F := Ideal) .f32 0xC1200000#32)
                  (FloatOps.log (F := Ideal) (φ := .f32)
                    (FloatOps.addf (F := Ideal) (φ := .f32) (FloatOps.logistic (F := Ideal) (φ := .f32) x)
                      (FloatOps.ofBits (F := Ideal) .f32 0x33D6BF95#32))))))))
        (BitVec.ofNat 32 t)).setWidth 32)
    = spike (bin x) t := rfl

/-- The second spelling: `σ(x)` as the quotient, 63 an integer read as a number, the comparison's bit read unsigned. -/
theorem elt_of_quotient (x : EReal) (t : Nat) :
    FloatOps.uitofp (F := Ideal) .f32
      (IntOp.cmpi .eq
        (FloatOps.fptosi (F := Ideal) (φ := .f32) 32
          (FloatOps.hostUnary (F := Ideal) (φ := .f32) .floor
            (FloatOps.minimumf (F := Ideal) (φ := .f32) (FloatOps.sitofp (F := Ideal) .f32 (63#32 : BitVec 32))
              (FloatOps.maximumf (F := Ideal) (φ := .f32) (FloatOps.ofBits (F := Ideal) .f32 0x00000000#32)
                (FloatOps.mulf (F := Ideal) (φ := .f32) (FloatOps.ofBits (F := Ideal) .f32 0xC1200000#32)
                  (FloatOps.hostUnary (F := Ideal) (φ := .f32) .log
                    (FloatOps.addf (F := Ideal) (φ := .f32)
                      (FloatOps.hostDivf (F := Ideal) (φ := .f32) (FloatOps.ofBits (F := Ideal) .f32 0x3F800000#32)
                        (FloatOps.addf (F := Ideal) (φ := .f32) (FloatOps.ofBits (F := Ideal) .f32 0x3F800000#32)
                          (FloatOps.hostUnary (F := Ideal) (φ := .f32) .exp (FloatOps.hostNegf (F := Ideal) (φ := .f32) x))))
                      (FloatOps.ofBits (F := Ideal) .f32 0x33D6BF95#32))))))))
        (BitVec.ofNat 32 t))
    = spike (bin x) t := by
  show (((IntOp.cmpi .eq (Ideal.fptosi 32 (Ideal.liftRound Int.floor
      (min (((63#32 : BitVec 32).toInt : ℝ) : EReal) (max (Ideal.ofBits .f32 0x00000000#32)
        (Ideal.ofBits .f32 0xC1200000#32 * Ideal.log
          (Ideal.div (Ideal.ofBits .f32 0x3F800000#32) (Ideal.ofBits .f32 0x3F800000#32 + Ideal.exp (-x))
            + Ideal.ofBits .f32 0x33D6BF95#32)))))) (BitVec.ofNat 32 t)).toNat : ℝ) : EReal) = _
  rw [logistic_quotient, ← sixtythree_f32, ← bit_signed_eq_unsigned]
  rfl

end Cert.SpikeCode

end
-- ==== Proof.BlockTrain.lean ====
/-
  What the kernel body stores, at one index of its output block, is the spike indicator of its input block.

  The body holds a `[256, 256]` block of inputs (all rows, 256 features) and stores a `[256, 64, 256]` block (all rows,
  all 64 time steps, the same 256 features). It computes the block's time bins, gives the bin array a unit time axis,
  repeats it along the 64 time steps, compares it with the counter of the time axis, and reads the bit as a number.
  So at `[b, t, n]` of the output block it stores the indicator that the bin of the input block's `[b, n]` is `t`.
-/
import proofs.«106997_j72885595013562_2_alg».proof.Proof.Gen.KernelIdeal.Skeleton
import proofs.«106997_j72885595013562_2_alg».proof.Proof.SpikeCode
import Idealize.ShloMosaic.Lib.Pipeline.Value
import Idealize.ShloMosaic.Lib.ValueIdx

noncomputable section

namespace Cert.SpikeCode.OfKernel

open Idealize.ShloMosaic Idealize.ShloMosaic.ValueIdx Cert.KernelIdeal Cert.KernelIdeal.Gen Cert.SpikeCode

/-- The input block's index `[b, n]` that the output block's index `[b, t, n]` depends on. -/
abbrev blockRowFeature (j : S256x64x256.Idx) : S256x256.Idx := ix2 (n0 := 256) (n1 := 256) (j 0) (j 2)

/-- A `[256, 256]` array of words, given a unit middle axis and repeated along 64 time steps, reads at `[b, t, n]`
    the word at `[b, n]`: the repetition forgets `t`, and the unit axis does not move the row-major position. -/
theorem repeat_along_time (w : IVec S256x256 32) (j : S256x64x256.Idx) :
    broadcastTo S256x64x256 (shapeCast S256x1x256 w shapeCasts_S256x256_S256x1x256) broadcasts_S256x1x256_S256x64x256 j
      = w (blockRowFeature j) := by
  refine (broadcastTo_apply _ broadcasts_S256x1x256_S256x64x256 j
    (ix3 (n0 := 256) (n1 := 1) (n2 := 256) (j 0) ⟨0, Nat.one_pos⟩ (j 2)) (fun a => ?_)).trans ?_
  · match a with
    | ⟨0, _⟩ => show (j 0).val = if (256 : Nat) = 1 then 0 else (j 0).val; rw [if_neg (by decide)]
    | ⟨1, _⟩ => show 0 = if (1 : Nat) = 1 then 0 else (j 1).val; rw [if_pos rfl]
    | ⟨2, _⟩ => show (j 2).val = if (256 : Nat) = 1 then 0 else (j 2).val; rw [if_neg (by decide)]
  · refine shapeCast_apply _ shapeCasts_S256x256_S256x1x256 _ (blockRowFeature j) ?_
    rw [Shape.rowMajor_val_two, Shape.rowMajor_val_three]
    show (j 0).val * 256 + (j 2).val = ((j 0).val * 1 + 0) * 256 + (j 2).val
    omega

/-- The stored value at `[b, t, n]` of the output block: the indicator that the bin of the input block's `[b, n]` is `t`. -/
theorem stored_eq_spike (x0 : Vec Ideal S256x256 .f32) (j : S256x64x256.Idx) :
    k0_pay1 (F := Ideal) x0 j = spike (bin (x0 (blockRowFeature j))) (j 1).val := by
  unfold k0_pay1
  show FloatOps.sitofp (F := Ideal) .f32 ((IntOp.cmpi .eq
      (broadcastTo S256x64x256 (shapeCast S256x1x256 _ shapeCasts_S256x256_S256x1x256) broadcasts_S256x1x256_S256x64x256 j)
      (iota .tc S256x64x256 32 [1] iota_S256x64x256_d1_w32 j)).setWidth 32) = _
  rw [repeat_along_time, iota_single_apply]
  exact elt_of_logistic _ _

end Cert.SpikeCode.OfKernel

end
-- ==== Proof.KernelTrain.lean ====
/-
  The kernel's result array is the spike train of its argument.

  The grid has 16 points. Point `t` is handed columns `256 t … 256 t + 255` of the argument (all rows) and writes back
  columns `256 t … 256 t + 255` of the result (all rows, all 64 time steps). What it writes at `[b, s, n]` of its block
  is the indicator that the bin of the input block's `[b, n]` is `s`; the input block's `[b, n]` is the argument's
  `[b, 256 t + n]`, and the output block's `[b, s, n]` is the result's `[b, s, 256 t + n]`. So every point writes the
  spike train's own block. The 16 column blocks cover the result — the index `[b, s, N]` lies in the block of point
  `N / 256` — so after the run the result array is the spike train, whole.
-/
import proofs.«106997_j72885595013562_2_alg».proof.Proof.Gen.KernelIdeal.Value
import proofs.«106997_j72885595013562_2_alg».proof.Proof.BlockTrain

noncomputable section

namespace Cert.SpikeCode.OfKernel

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.SpikeCode

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The block index maps over the 16 grid points: point `t`'s input block is column block `t` of all rows, its output
    block column block `t` of all rows and all time steps. -/
theorem block_indices : ∀ t : Fin cfg0.N, win0_0.index t (0 : Fin 2) = 0 ∧ win0_0.index t (1 : Fin 2) = t.val
    ∧ win0_1.index t (0 : Fin 3) = 0 ∧ win0_1.index t (1 : Fin 3) = 0 ∧ win0_1.index t (2 : Fin 3) = t.val :=
  (by decide +kernel : ∀ t : Fin grid0.N, _)

/-- What point `t` writes back is block `t` of the spike train of the argument array. -/
theorem flushed_eq_train (c : Dev nD) (t : Fin cfg0.N) :
    (dats m 0 c).flushed 1 t = ((cfg0.win 1).blk t).view.read (Elt Ideal) (train (V m c main_arg0)) := by
  rw [flushed1]
  unfold out0_1
  rw [View.canon_unit_zero zero3]
  simp only [View.ld_unit_zero (S := S256x256) zero2]
  obtain ⟨e0, e1, e2, e3, e4⟩ := block_indices t
  funext j
  show k0_pay1 (iblk m c 0 t) j = train (V m c main_arg0) (((cfg0.win 1).blk t).view.emb j)
  rw [stored_eq_spike]
  show spike (bin (V m c main_arg0 (((cfg0.win 0).blk t).view.emb (blockRowFeature j)))) (j 1).val
    = spike (bin (V m c main_arg0 (rowFeature (((cfg0.win 1).blk t).view.emb j)))) ((((cfg0.win 1).blk t).view.emb j) 1).val
  have hidx : ((cfg0.win 0).blk t).view.emb (blockRowFeature j) = rowFeature (((cfg0.win 1).blk t).view.emb j) := by
    funext a; apply Fin.ext
    match a with
    | ⟨0, _⟩ => show win0_0.index t (0 : Fin 2) * 256 + 1 * (j 0).val = win0_1.index t (0 : Fin 3) * 256 + 1 * (j 0).val; omega
    | ⟨1, _⟩ => show win0_0.index t (1 : Fin 2) * 256 + 1 * (j 2).val = win0_1.index t (2 : Fin 3) * 256 + 1 * (j 2).val; omega
  have htime : ((((cfg0.win 1).blk t).view.emb j) 1).val = (j 1).val := by
    show win0_1.index t (1 : Fin 3) * 64 + 1 * (j 1).val = (j 1).val; omega
  rw [hidx, htime]

/-- An index of the result is in point `t`'s block iff each coordinate is in the block's range on its axis. -/
theorem mem_block (t : Fin cfg0.N) (i : S256x64x4096.Idx) :
    i ∈ ((cfg0.win 1).blk t).view.set ↔ ∀ a : Fin 3, win0_1.index t a * S256x64x256.size a ≤ (i a).val
      ∧ (i a).val < win0_1.index t a * S256x64x256.size a + S256x64x256.size a := by
  show i ∈ ((View.whole main_v0).slice (win0_1.rect t)).set ↔ _
  rw [View.set_slice_whole, Rect.mem_set_unit]
  exact Iff.rfl

/-- The 16 column blocks cover the result: `[b, s, N]` lies in the block of point `N / 256`. -/
theorem covered (i : S256x64x4096.Idx) :
    ∃ t : Fin cfg0.N, (cfg0.win 1).flush t = true ∧ i ∈ ((cfg0.win 1).blk t).view.set := by
  have h0 : (i 0).val < 256 := (i 0).isLt
  have h1 : (i 1).val < 64 := (i 1).isLt
  have h2 : (i 2).val < 4096 := (i 2).isLt
  have hN : cfg0.N = 16 := N_0
  obtain ⟨t, ht⟩ : ∃ t : Fin cfg0.N, t.val = (i 2).val / 256 := ⟨⟨(i 2).val / 256, by rw [hN]; omega⟩, rfl⟩
  obtain ⟨e0, e1, e2, e3, e4⟩ := block_indices t
  refine ⟨t, flush0_1 t, ?_⟩
  rw [mem_block]
  intro a
  match a with
  | ⟨0, _⟩ => show win0_1.index t (0 : Fin 3) * 256 ≤ (i 0).val ∧ (i 0).val < win0_1.index t (0 : Fin 3) * 256 + 256; omega
  | ⟨1, _⟩ => show win0_1.index t (1 : Fin 3) * 64 ≤ (i 1).val ∧ (i 1).val < win0_1.index t (1 : Fin 3) * 64 + 64; omega
  | ⟨2, _⟩ => show win0_1.index t (2 : Fin 3) * 256 ≤ (i 2).val ∧ (i 2).val < win0_1.index t (2 : Fin 3) * 256 + 256; omega

/-- After the run the result array is the spike train of the argument array. -/
theorem final_train (c : Dev nD) :
    (dats m 0 c).arrAt 1 cfg0.N = train (m ((c : Thread nD τ).loc main_arg0)) :=
  (dats m 0 c).arrAt_eq_of_cover 1 (train (V m c main_arg0)) (fun t _ => flushed_eq_train m c t) covered

/-- The kernel's run: every weakly fair execution ends with the result array at the spike train of the argument, the
    argument unchanged. -/
theorem run_train : θ_run defs (onTc (τ := τ) (main (F := Ideal))) ⟨m, fun _ => 0, ρ⟩ fun r => ∀ c : Dev nD,
      r.2.mem ((c : Thread nD τ).loc main_v0) = train (m ((c : Thread nD τ).loc main_arg0))
      ∧ r.2.mem ((c : Thread nD τ).loc main_arg0) = m ((c : Thread nD τ).loc main_arg0) :=
  (θ_run defs _ _).mono (fun r h c => ⟨(h c).1.trans (final_train m c), (h c).2⟩) (run_blocks m ρ)

end Cert.SpikeCode.OfKernel

end
-- ==== Proof.ReferenceTrain.lean ====
/-
  The reference program's result is the spike train of its argument.

  Read one operation at a time, the reference's result at row `b`, time step `t`, feature `n` is the transposed
  one-hot array at `[b, n, t]`: the comparison of the bin array at `[b, n]` (broadcast along a new last axis) with
  the time-step counter at `t` (broadcast along rows and features), read as a number. The bin array at `[b, n]` is
  the integer part of the clipped latency of `x [b, n]`, with the logistic function spelt as the quotient
  `1 / (1 + e^(-x))`. That is the second spelling of one element of the spike train.
-/
import proofs.«106997_j72885595013562_2_alg».proof.Proof.Gen.ReferenceIdeal.Read
import proofs.«106997_j72885595013562_2_alg».proof.Proof.SpikeCode

noncomputable section

namespace Cert.SpikeCode.OfReference

open Idealize.ShloMosaic Idealize.ShloMosaic.ValueIdx Cert.ReferenceIdeal Cert.ReferenceIdeal.Read Cert.SpikeCode

/-- The result index `[b, t, n]` is carried back, through the transpose and the two broadcasts, to the bin array's
    index `[b, n]`. -/
theorem bin_index (i : S256x64x4096.Idx) :
    idx_main_call1_v0 (idx_main_call1_v2 (idx_main_v15 i)) = rowFeature i :=
  funext fun a => Fin.ext (by match a with | ⟨0, _⟩ => rfl | ⟨1, _⟩ => rfl)

/-- The reference's result, as a function of its argument array, is the spike train. -/
theorem result_eq_train (x : (⟨S256x4096, .f32⟩ : BufTy).Contents (Elt Ideal)) :
    val_main_v15 (F := Ideal) x = train x := by
  funext i
  rw [val_main_v15_apply, val_main_v14_apply, val_main_call1_v4_apply, val_main_call1_v2_apply,
    val_main_call1_v0_apply, val_main_call1_v3_apply, val_main_call1_v1_apply,
    val_main_v13_apply, val_main_v12_apply, val_main_v11_apply, val_main_call0_v4_apply, val_main_call0_v3_apply,
    val_main_c_apply, val_main_call0_v2_apply, val_main_call0_v1_apply, val_main_call0_v0_apply, val_main_cst_3_apply,
    val_main_v10_apply, val_main_v9_apply, val_main_cst_2_apply, val_main_v8_apply, val_main_v7_apply,
    val_main_v5_apply, val_main_v4_apply, val_main_cst_0_apply, val_main_v3_apply, val_main_v2_apply,
    val_main_cst_apply, val_main_v1_apply, val_main_v0_apply, val_main_v6_apply, val_main_cst_1_apply, bin_index]
  exact elt_of_quotient (x (rowFeature i)) (i 1).val

end Cert.SpikeCode.OfReference

end
-- ==== Proof.lean ====
/-
  A latency spike code: the kernel and its reference compute one function on the extended reals.

  An input `x` has latency `ℓ(x) = min 63 (max 0 (−10 · log (σ(x) + ε)))`, `σ` the logistic function, and time bin
  `⌊ℓ(x)⌋`; the spike train is `train x [b, t, n] = 1` if the bin of `x [b, n]` is `t`, else `0` (Proof/SpikeCode.lean).

  The kernel builds the train directly in `[row, time, feature]` layout, 256 feature columns per grid point, with `σ`
  one operation; its result array ends at the train of its argument (Proof/BlockTrain.lean: one stored element;
  Proof/KernelTrain.lean: the 16 column blocks cover the array). The reference spells `σ(x)` as `1 / (1 + e^(-x))`,
  builds the one-hot array in `[row, feature, time]` layout and transposes it; its result is the train of its argument
  too (Proof/ReferenceTrain.lean). No law used needs the inputs finite: the two programs apply the same function to
  each element, and the logistic function is that quotient on every extended real.

  Each program runs to the end without a fault and leaves its argument unchanged; the idealized kernel is the
  kernel's own text read on the extended reals (no rewrite was applied, so nothing is owed for it).
-/
import proofs.«106997_j72885595013562_2_alg».proof.Defs
import proofs.«106997_j72885595013562_2_alg».proof.Proof.Gen.Kernel
import proofs.«106997_j72885595013562_2_alg».proof.Proof.Gen.Kernel.Skeleton
import proofs.«106997_j72885595013562_2_alg».proof.Proof.Gen.Kernel.Launch
import proofs.«106997_j72885595013562_2_alg».proof.Proof.Gen.Kernel.Points
import proofs.«106997_j72885595013562_2_alg».proof.Proof.Gen.Kernel.Frame
import proofs.«106997_j72885595013562_2_alg».proof.Proof.Gen.KernelIdeal
import proofs.«106997_j72885595013562_2_alg».proof.Proof.Gen.KernelIdeal.Skeleton
import proofs.«106997_j72885595013562_2_alg».proof.Proof.Gen.KernelIdeal.Launch
import proofs.«106997_j72885595013562_2_alg».proof.Proof.Gen.KernelIdeal.Points
import proofs.«106997_j72885595013562_2_alg».proof.Proof.Gen.KernelIdeal.Frame
import proofs.«106997_j72885595013562_2_alg».proof.Proof.Gen.ReferenceIdeal
import proofs.«106997_j72885595013562_2_alg».proof.Proof.Gen.KernelIdeal.Value
import proofs.«106997_j72885595013562_2_alg».proof.Proof.Gen.ReferenceIdeal.Run
import proofs.«106997_j72885595013562_2_alg».proof.Proof.Gen.ReferenceIdeal.Read
import proofs.«106997_j72885595013562_2_alg».proof.Proof.Gen.Pre_finite_inputs
import proofs.«106997_j72885595013562_2_alg».proof.Proof.KernelTrain
import proofs.«106997_j72885595013562_2_alg».proof.Proof.ReferenceTrain
import Idealize.ShloMosaic.Adequacy
import Idealize.ShloMosaic.Init

noncomputable section

namespace Cert.Proof

open Idealize.ShloMosaic Idealize.SL.Sem Cert.Kernel

/-- The kernel, word by word, runs and leaves its argument unchanged. -/
theorem frame_kernel : Cert.frame_Kernel (hKernel := Cert.Kernel.Gen.facts) (hPre_finite_inputs := Cert.Pre_finite_inputs.Gen.facts) :=
  fun m ρ _ => Cert.Kernel.Gen.frame m ρ

/-- The kernel on the extended reals runs and leaves its argument unchanged. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference on the extended reals runs and leaves its argument unchanged: its run, the result forgotten. -/
theorem frame_reference_ideal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the argument, both programs end with the spike train of that argument as their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.SpikeCode.train (m ((c.tc : Thread Cert.KernelIdeal.nD Cert.KernelIdeal.τ).loc Cert.KernelIdeal.main_arg0)),
    Cert.SpikeCode.OfKernel.run_train m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v15_eq, Cert.SpikeCode.OfReference.result_eq_train, hagree c]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
